-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x64 : Shape := ⟨2, ![65536, 64]⟩
abbrev S512x1024 : Shape := ⟨2, ![512, 1024]⟩
abbrev S1024 : Shape := ⟨1, ![1024]⟩
abbrev S1024x64 : Shape := ⟨2, ![1024, 64]⟩
abbrev S64 : Shape := ⟨1, ![64]⟩
abbrev S64x1024 : Shape := ⟨2, ![64, 1024]⟩
abbrev S1024x512 : Shape := ⟨2, ![1024, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x1024 : S_.BroadcastsInDim S64x1024 (![] : Fin 0 → Fin S64x1024.rank)
  reducesTo_S64x1024_S_d0_1 : S64x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S1024x512 .f32) (main_arg13 : FVec F S512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S64 .f32) (main_arg8 : FVec F S64x1024 .f32) (main_arg9 : FVec F S1024 .f32) (main_arg10 : FVec F S1024x512 .f32) (main_arg11 : FVec F S512 .f32) (main_arg12 : FVec F S1024x512 .f32) (main_arg13 : FVec F S512 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1024 .f32 := Host.absf main_arg8
  let main_cst_14 : FVec F S_ .f32 := constant S_ .f32 0x7F800000#32
  let main_v40 : FVec F S64x1024 .f32 := broadcastInDim S64x1024 ![] bcast_S_S64x1024 main_cst_14
  let main_v41 : IVec S64x1024 1 := cmpf .olt main_v39 main_v40
  let main_c_15 : IVec S_ 1 := constantI S_ 1 1#1
  let main_v42 : IVec S_ 1 := (fun x v => Host.reduce IntOp.andi x v reducesTo_S64x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_v48 main_v49 main_v50

def fn_part1 {F : FTy → Type} [FloatOps F] (main_arg4 : FVec F S1024x64 .f32) (main_arg5 : FVec F S64 .f32) (main_arg6 : FVec F S1024x64 .f32) (main_arg7 : FVec F S64 .f32) (main_arg8 : FVec F S64x1024 .f32) (main_arg9 : FVec F S1024 .f32) (main_arg10 : FVec F S1024x512 .f32) (main_arg11 : FVec F S512 .f32) (main_arg12 : FVec F S1024x512 .f32) (main_arg13 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1024x64 .f32 := Host.absf main_arg6
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x512 .f32) (main_arg1 : FVec F S65536x64 .f32) (main_arg2 : FVec F S512x1024 .f32) (main_arg3 : FVec F S1024 .f32) (main_arg4 : FVec F S1024x64 .f32) (main_arg5 : FVec F S64 .f32) (main_arg6 : FVec F S1024x64 .f32) (main_arg7 : FVec F S64 .f32) (main_arg8 : FVec F S64x1024 .f32) (main_arg9 : FVec F S1024 .f32) (main_arg10 : FVec F S1024x512 .f32) (main_arg11 : FVec F S512 .f32) (main_arg12 : FVec F S1024x512 .f32) (main_arg13 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x512 : Shape := ⟨2, ![65536, 512]⟩
abbrev S65536x64 : Shape := ⟨2, ![65536, 64]⟩
abbrev S512x1024 : Shape := ⟨2, ![512, 1024]⟩
abbrev S1024 : Shape := ⟨1, ![1024]⟩
abbrev S1024x64 : Shape := ⟨2, ![1024, 64]⟩
abbrev S64 : Shape := ⟨1, ![64]⟩
abbrev S64x1024 : Shape := ⟨2, ![64, 1024]⟩
abbrev S1024x512 : Shape := ⟨2, ![1024, 512]⟩
abbrev S512 : Shape := ⟨1, ![512]⟩
abbrev S65536 : Shape := ⟨1, ![65536]⟩
abbrev S512x512 : Shape := ⟨2, ![512, 512]⟩
abbrev S512x64 : Shape := ⟨2, ![512, 64]⟩
abbrev S1x1024 : Shape := ⟨2, ![1, 1024]⟩
abbrev S1x64 : Shape := ⟨2, ![1, 64]⟩
abbrev S1x512 : Shape := ⟨2, ![1, 512]⟩
abbrev S512x1 : Shape := ⟨2, ![512, 1]⟩
abbrev S_ : Shape := ⟨0, ![]⟩

abbrev nBuf : Space → Nat
  | .hbm => 25
  | .vmem => 18
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S512x1024, .f32⟩
  | .hbm, ⟨3, _⟩ => ⟨S1024, .f32⟩
  | .hbm, ⟨4, _⟩ => ⟨S1024x64, .f32⟩
  | .hbm, ⟨5, _⟩ => ⟨S64, .f32⟩
  | .hbm, ⟨6, _⟩ => ⟨S1024x64, .f32⟩
  | .hbm, ⟨7, _⟩ => ⟨S64, .f32⟩
  | .hbm, ⟨8, _⟩ => ⟨S64x1024, .f32⟩
  | .hbm, ⟨9, _⟩ => ⟨S1024, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S512x1024, .bf16⟩
  | .hbm, ⟨15, _⟩ => ⟨S1024x64, .bf16⟩
  | .hbm, ⟨16, _⟩ => ⟨S1024x64, .bf16⟩
  | .hbm, ⟨17, _⟩ => ⟨S64x1024, .bf16⟩
  | .hbm, ⟨18, _⟩ => ⟨S1024x512, .bf16⟩
  | .hbm, ⟨19, _⟩ => ⟨S1024x512, .bf16⟩
  | .hbm, ⟨20, _⟩ => ⟨S65536, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x64, .f32⟩
  | .local _ .vmem, ⟨3, _⟩ => ⟨S512x64, .f32⟩
  | .local _ .vmem, ⟨4, _⟩ => ⟨S512x1024, .bf16⟩
  | .local _ .vmem, ⟨5, _⟩ => ⟨S1024, .f32⟩
  | .local _ .vmem, ⟨6, _⟩ => ⟨S1024x64, .bf16⟩
  | .local _ .vmem, ⟨7, _⟩ => ⟨S64, .f32⟩
  | .local _ .vmem, ⟨8, _⟩ => ⟨S1024x64, .bf16⟩
  | .local _ .vmem, ⟨9, _⟩ => ⟨S64, .f32⟩
  | .local _ .vmem, ⟨10, _⟩ => ⟨S64x1024, .bf16⟩
  | .local _ .vmem, ⟨11, _⟩ => ⟨S1024, .f32⟩
  | .local _ .vmem, ⟨12, _⟩ => ⟨S1024x512, .bf16⟩
  | .local _ .vmem, ⟨13, _⟩ => ⟨S512, .f32⟩
  | .local _ .vmem, ⟨14, _⟩ => ⟨S1024x512, .bf16⟩
  | .local _ .vmem, ⟨15, _⟩ => ⟨S512, .f32⟩
  | .local _ .vmem, ⟨16, _⟩ => ⟨S512, .f32⟩
  | .local _ .vmem, ⟨17, _⟩ => ⟨S512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x64_S512x64_0_0 : ∀ a, (![0, 0] : Fin 2 → Nat) a + S512x64.size a ≤ S512x64.size a
  h_S512x64 : 0 < S512x64.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  reduces_S512x64_S512 : S512x64.Reduces [1] S512
  reducesTo_S65536_S_d0 : S65536.ReducesTo [0] S_
  h_S_ : 0 < S_.numel
  dot_S512x512_S512x1024_S512x1024_1_0_0_1_n_n_wf : DotDims.WF S512x512 S512x1024 S512x1024 [1] [0] [0] [1] [] []
  dot_S512x1024_S1024x64_S512x64_1_0_0_1_n_n_wf : DotDims.WF S512x1024 S1024x64 S512x64 [1] [0] [0] [1] [] []
  dot_S512x64_S64x1024_S512x1024_1_0_0_1_n_n_wf : DotDims.WF S512x64 S64x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S65536x64.size a
  hwx0_1 : ∀ i : grid0.Coords, EltTy.bits .f32 = 32 ∨ (Rect.block (s := S65536x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S1024x64.size a
  hwx0_6 : ∀ i : grid0.Coords, EltTy.bits .bf16 = 32 ∨ (Rect.block (s := S1024x64) S1024x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x1024.size a
  hwx0_8 : ∀ i : grid0.Coords, EltTy.bits .bf16 = 32 ∨ (Rect.block (s := S64x1024) S64x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S1024x512.size a
  hwx0_12 : ∀ i : grid0.Coords, EltTy.bits .bf16 = 32 ∨ (Rect.block (s := S1024x512) S1024x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S65536.size a
  hwx0_14 : ∀ i : grid0.Coords, EltTy.bits .f32 = 32 ∨ (Rect.block (s := S65536) S512.size (cc0_transform_14 i) (hinb0_14 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S64x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x64 : Shape := ⟨2, ![65536, 64]⟩
abbrev S512x1024 : Shape := ⟨2, ![512, 1024]⟩
abbrev S1024 : Shape := ⟨1, ![1024]⟩
abbrev S1024x64 : Shape := ⟨2, ![1024, 64]⟩
abbrev S64 : Shape := ⟨1, ![64]⟩
abbrev S64x1024 : Shape := ⟨2, ![64, 1024]⟩
abbrev S1024x512 : Shape := ⟨2, ![1024, 512]⟩
abbrev S512 : Shape := ⟨1, ![512]⟩
abbrev S65536x1024 : Shape := ⟨2, ![65536, 1024]⟩
abbrev S1x1024 : Shape := ⟨2, ![1, 1024]⟩
abbrev S1x64 : Shape := ⟨2, ![1, 64]⟩
abbrev S_ : Shape := ⟨0, ![]⟩
abbrev S1x512 : Shape := ⟨2, ![1, 512]⟩
abbrev S65536 : Shape := ⟨1, ![65536]⟩
abbrev S65536x1 : Shape := ⟨2, ![65536, 1]⟩

abbrev nBuf : Space → Nat
  | .hbm => 94
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S512x1024, .f32⟩
  | .hbm, ⟨3, _⟩ => ⟨S1024, .f32⟩
  | .hbm, ⟨4, _⟩ => ⟨S1024x64, .f32⟩
  | .hbm, ⟨5, _⟩ => ⟨S64, .f32⟩
  | .hbm, ⟨6, _⟩ => ⟨S1024x64, .f32⟩
  | .hbm, ⟨7, _⟩ => ⟨S64, .f32⟩
  | .hbm, ⟨8, _⟩ => ⟨S64x1024, .f32⟩
  | .hbm, ⟨9, _⟩ => ⟨S1024, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S65536x1024, .f32⟩
  | .hbm, ⟨15, _⟩ => ⟨S1x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x64, .f32⟩
  | .hbm, ⟨20, _⟩ => ⟨S1x64, .f32⟩
  | .hbm, ⟨21, _⟩ => ⟨S65536x64, .f32⟩
  | .hbm, ⟨22, _⟩ => ⟨S65536x64, .f32⟩
  | .hbm, ⟨23, _⟩ => ⟨S65536x64, .f32⟩
  | .hbm, ⟨24, _⟩ => ⟨S1x64, .f32⟩
  | .hbm, ⟨25, _⟩ => ⟨S65536x64, .f32⟩
  | .hbm, ⟨26, _⟩ => ⟨S65536x64, .f32⟩
  | .hbm, ⟨27, _⟩ => ⟨S_, .f32⟩
  | .hbm, ⟨28, _⟩ => ⟨S65536x64, .f32⟩
  | .hbm, ⟨29, _⟩ => ⟨S65536x64, .f32⟩
  | .hbm, ⟨30, _⟩ => ⟨S65536x64, .f32⟩
  | .hbm, ⟨31, _⟩ => ⟨S65536x64, .f32⟩
  | .hbm, ⟨32, _⟩ => ⟨S65536x64, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x512, .f32⟩
  | .hbm, ⟨39, _⟩ => ⟨S1x512, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536, .f32⟩
  | .hbm, ⟨44, _⟩ => ⟨S_, .f32⟩
  | .hbm, ⟨45, _⟩ => ⟨S65536, .f32⟩
  | .hbm, ⟨46, _⟩ => ⟨S65536, .f32⟩
  | .hbm, ⟨47, _⟩ => ⟨S65536x1, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S65536x512, .f32⟩
  | .hbm, ⟨55, _⟩ => ⟨S65536x512, .f32⟩
  | .hbm, ⟨56, _⟩ => ⟨S65536x512, .f32⟩
  | .hbm, ⟨57, _⟩ => ⟨S1x512, .f32⟩
  | .hbm, ⟨58, _⟩ => ⟨S65536x512, .f32⟩
  | .hbm, ⟨59, _⟩ => ⟨S65536x512, .f32⟩
  | .hbm, ⟨60, _⟩ => ⟨S_, .f32⟩
  | .hbm, ⟨61, _⟩ => ⟨S65536x64, .f32⟩
  | .hbm, ⟨62, _⟩ => ⟨S65536x64, .f32⟩
  | .hbm, ⟨63, _⟩ => ⟨S65536x64, .f32⟩
  | .hbm, ⟨64, _⟩ => ⟨S65536x64, .f32⟩
  | .hbm, ⟨65, _⟩ => ⟨S65536x64, .f32⟩
  | .hbm, ⟨66, _⟩ => ⟨S65536x64, .f32⟩
  | .hbm, ⟨67, _⟩ => ⟨S_, .f32⟩
  | .hbm, ⟨68, _⟩ => ⟨S65536, .f32⟩
  | .hbm, ⟨69, _⟩ => ⟨S_, .f32⟩
  | .hbm, ⟨70, _⟩ => ⟨S65536, .f32⟩
  | .hbm, ⟨71, _⟩ => ⟨S65536, .f32⟩
  | .hbm, ⟨72, _⟩ => ⟨S65536x512, .f32⟩
  | .hbm, ⟨73, _⟩ => ⟨S65536x512, .f32⟩
  | .hbm, ⟨74, _⟩ => ⟨S65536x512, .f32⟩
  | .hbm, ⟨75, _⟩ => ⟨S65536x512, .f32⟩
  | .hbm, ⟨76, _⟩ => ⟨S65536x512, .f32⟩
  | .hbm, ⟨77, _⟩ => ⟨S65536x512, .f32⟩
  | .hbm, ⟨78, _⟩ => ⟨S_, .f32⟩
  | .hbm, ⟨79, _⟩ => ⟨S65536x512, .f32⟩
  | .hbm, ⟨80, _⟩ => ⟨S65536x512, .f32⟩
  | .hbm, ⟨81, _⟩ => ⟨S_, .f32⟩
  | .hbm, ⟨82, _⟩ => ⟨S65536, .f32⟩
  | .hbm, ⟨83, _⟩ => ⟨S_, .f32⟩
  | .hbm, ⟨84, _⟩ => ⟨S65536, .f32⟩
  | .hbm, ⟨85, _⟩ => ⟨S65536, .f32⟩
  | .hbm, ⟨86, _⟩ => ⟨S_, .f32⟩
  | .hbm, ⟨87, _⟩ => ⟨S65536, .f32⟩
  | .hbm, ⟨88, _⟩ => ⟨S65536, .f32⟩
  | .hbm, ⟨89, _⟩ => ⟨S65536, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  reducesTo_S65536x64_S65536_d1 : S65536x64.ReducesTo [1] S65536
  bcast_S_S65536x512 : S_.BroadcastsInDim S65536x512 (![] : Fin 0 → Fin S65536x512.rank)
  reducesTo_S65536_S_d0 : S65536.ReducesTo [0] S_
  dot_S65536x512_S512x1024_S65536x1024_1_0_0_1_n_n_wf : DotDims.WF S65536x512 S512x1024 S65536x1024 [1] [0] [0] [1] [] []
  dot_S65536x1024_S1024x64_S65536x64_1_0_0_1_n_n_wf : DotDims.WF S65536x1024 S1024x64 S65536x64 [1] [0] [0] [1] [] []
  dot_S65536x64_S64x1024_S65536x1024_1_0_0_1_n_n_wf : DotDims.WF S65536x64 S64x1024 S65536x1024 [1] [0] [0] [1] [] []
  dot_S65536x1024_S1024x512_S65536x512_1_0_0_1_n_n_wf : DotDims.WF S65536x1024 S1024x512 S65536x512 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf
def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.RowSpec.lean ====
/-
  One row of a variational auto-encoder's evidence lower bound, as a function on the extended reals.

  A data row x (512 entries) and a noise row eps (64 entries) go through
    h    = tanh (x·W₁ + b₁)                       (1024 entries)
    mu   = h·W₂ + b₂ ,  lv = h·W₃ + b₃             (64 entries each: mean and log-variance of the code)
    z    = mu + exp (lv / 2) · eps                 (the reparameterised sample)
    hd   = tanh (z·W₄ + b₄)                        (1024 entries)
    mux  = softmax (hd·W₅ + b₅) ,  lvx = hd·W₆ + b₆ (512 entries each)
  and the row's value is  loglik x mux lvx − kl mu lv  with
    kl     = −½ · Σₗ (1 + lvₗ − muₗ² − exp lvₗ)
    loglik = −½ · Σ_d (lvx_d + (x_d − mux_d)² · exp (−lvx_d) + log 2π).
  The softmax subtracts the row's maximum before exponentiating; the maximum is the fold of max from −∞.
  Every product x·W is the plain sum over the contracted coordinate, every Σ a plain finite sum: no
  rounding and no order of summation is left at the extended reals. The result of the whole computation is the mean
  of the rows' values over the 65536 rows.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.VaeRow

/-- A K × N table and an N-vector of extended reals, indexed as the arrays are. -/
abbrev Mat (K N : Nat) : Type := (⟨2, ![K, N]⟩ : Shape).Idx → EReal
abbrev Vct (N : Nat) : Type := (⟨1, ![N]⟩ : Shape).Idx → EReal

/-- The constants, each the extended real its 32-bit pattern denotes: ½, 1, −½, log 2π rounded to 32 bits, −∞. -/
abbrev half : EReal := Ideal.ofBits .f32 0x3F000000#32
abbrev one : EReal := Ideal.ofBits .f32 0x3F800000#32
abbrev mhalf : EReal := Ideal.ofBits .f32 0xBF000000#32
abbrev log2pi : EReal := Ideal.ofBits .f32 0x3FEB3F8E#32
abbrev ninf : EReal := Ideal.ofBits .f32 0xFF800000#32

/-- One row through an affine layer: entry j is Σₖ xₖ · W[k, j] + b[j]. -/
def affine {K N : Nat} (W : Mat K N) (b : Vct N) (x : Fin K → EReal) (j : Fin N) : EReal :=
  (∑ k : Fin K, x k * W (ix2 k j)) + b (ix1 j)

/-- The six layers' weights and biases. -/
structure Params where
  W1 : Mat 512 1024
  b1 : Vct 1024
  W2 : Mat 1024 64
  b2 : Vct 64
  W3 : Mat 1024 64
  b3 : Vct 64
  W4 : Mat 64 1024
  b4 : Vct 1024
  W5 : Mat 1024 512
  b5 : Vct 512
  W6 : Mat 1024 512
  b6 : Vct 512

/-- tanh of an affine layer, entry by entry. -/
def tanhLayer {K N : Nat} (W : Mat K N) (b : Vct N) (x : Fin K → EReal) : Fin N → EReal :=
  fun j => Ideal.tanh (affine W b x j)

/-- The reparameterised sample mu + exp (lv / 2) · eps. -/
def sample (mu lv eps : Fin 64 → EReal) : Fin 64 → EReal :=
  fun l => mu l + Ideal.exp (half * lv l) * eps l

/-- A row's maximum: the fold of max from −∞ over its 512 entries. -/
def rowMax (g : Fin 512 → EReal) : EReal := (Finset.univ : Finset (Fin 512)).fold max ninf g

/-- exp of the row shifted by its maximum. -/
def expShift (g : Fin 512 → EReal) : Fin 512 → EReal := fun d => Ideal.exp (g d - rowMax g)

/-- The softmax of a row: the shifted exponentials over their sum. -/
def softmax (g : Fin 512 → EReal) : Fin 512 → EReal :=
  fun d => Ideal.div (expShift g d) (∑ k : Fin 512, expShift g k)

/-- The Kullback–Leibler term of a code's mean and log-variance against the standard normal. -/
def kl (mu lv : Fin 64 → EReal) : EReal :=
  mhalf * ∑ l : Fin 64, (one + lv l - mu l * mu l - Ideal.exp (lv l))

/-- The diagonal Gaussian log-likelihood of the row x under mean mux and log-variance lvx. -/
def loglik (x mux lvx : Fin 512 → EReal) : EReal :=
  mhalf * ∑ d : Fin 512, (lvx d + (x d - mux d) * (x d - mux d) * Ideal.exp (-lvx d) + log2pi)

/-- The code's mean and log-variance, and the decoder's hidden row, of a data row and a noise row. -/
def codeMean (P : Params) (x : Fin 512 → EReal) : Fin 64 → EReal := affine P.W2 P.b2 (tanhLayer P.W1 P.b1 x)
def codeLogvar (P : Params) (x : Fin 512 → EReal) : Fin 64 → EReal := affine P.W3 P.b3 (tanhLayer P.W1 P.b1 x)
def decHidden (P : Params) (x : Fin 512 → EReal) (eps : Fin 64 → EReal) : Fin 1024 → EReal :=
  tanhLayer P.W4 P.b4 (sample (codeMean P x) (codeLogvar P x) eps)

/-- The row's value: log-likelihood minus the Kullback–Leibler term. -/
def elbo (P : Params) (x : Fin 512 → EReal) (eps : Fin 64 → EReal) : EReal :=
  loglik x (softmax (affine P.W5 P.b5 (decHidden P x eps))) (affine P.W6 P.b6 (decHidden P x eps))
    - kl (codeMean P x) (codeLogvar P x)

/-- The rows' values as one array over the 65536 rows of the data X and the noise E. -/
def elboRows (P : Params) (X : Mat 65536 512) (E : Mat 65536 64) : Vct 65536 :=
  fun i => elbo P (fun d => X (ix2 (⟨(i 0).val, (i 0).isLt⟩ : Fin 65536) d)) (fun l => E (ix2 (⟨(i 0).val, (i 0).isLt⟩ : Fin 65536) l))

/-- The mean of the rows' values as the host takes it: their sum from 0, divided by 65536. The two facts about the shapes
    (the 65536-vector reduces along its one axis to a scalar; a scalar has an element) are arguments, so that any proofs of
    them give the same value. -/
def meanTail (v : FVec Ideal ⟨1, ![65536]⟩ .f32) (h' : (⟨1, ![65536]⟩ : Shape).ReducesTo [0] ⟨0, ![]⟩)
    (hu : 0 < (⟨0, ![]⟩ : Shape).numel) : FVec Ideal ⟨0, ![]⟩ .f32 :=
  Host.divf (F := Ideal) (Host.reduceAdd (F := Ideal) v (constant (F := Ideal) ⟨0, ![]⟩ .f32 0x00000000#32) h' hu)
    (constant (F := Ideal) ⟨0, ![]⟩ .f32 0x47800000#32)

end Cert.VaeRow

end
-- ==== Proof.RowOps.lean ====
/-
  Layout operations, row reductions and a row-times-column product read at coordinates.

  A column of row values [a] cast to [a, 1] and spread over the columns to [a, b] reads, at (p, c), the value of row p.
  A reduction of an [a, b] array along its second axis reads, at row p, the sum (or the fold of max) over the b
  entries of that row. A matrix product of [M, K] by [K, N] into a zero accumulator reads, at (p, j), the sum over k
  of the left operand at (p, k) times the right at (k, j). On the extended reals a fold of max that started from b is at least
  b, so its maximum with b is the fold itself; and the pattern 0x3F800000 denotes 1.
-/
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.RowOps

variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's values [a], as a column spread over b columns, read at (p, c): row p's value. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A bias [b], as a row spread over a rows, read at (p, c): the bias at c. -/
theorem row_spread_apply {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x hc) hb (ix2 p c) = x (ix1 c) :=
  (broadcastTo_1b_ab_apply _ hb p c).trans (shapeCast_a_1a_apply x hc 0 c)

/-- The index of row p with the reduced coordinate k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the second axis, read at row p: the sum of that row's b entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  exact Finset.sum_congr rfl fun k _ => congrArg src (lift_row h p k)

/-- A maximum along the second axis from −∞, read at row p: the fold of max over that row's b entries. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src _ h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The host's maximum along the second axis from the initial value v, read at row p: the fold of max from v. -/
theorem hostRowMax_apply {a b : ℕ} (x : FVec Ideal ⟨2, ![a, b]⟩ .f32) (v : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x v h' hu (ix1 p)
      = (Finset.univ : Finset (Fin b)).fold max (v ix0) (fun k => x (ix2 p k)) := by
  rw [Host.reduce_eq_fold_single FloatOps.maximumf x v h' h hu]
  have hf : (x ∘ h.lift (ix1 p)) = fun k : Fin b => x (ix2 p k) := funext fun k => congrArg x (lift_row h p k)
  have hv : v (Shape.Idx.first hu) = v ix0 := congrArg v (funext fun d => d.elim0)
  rw [hv]
  exact congrArg (fun f => Finset.fold max (v ix0) f (Finset.univ : Finset (Fin b))) hf

/-- A fold of max that starts from b is at least b: taking the maximum with b again changes nothing. -/
theorem max_fold_max {ι : Type} (s : Finset ι) (b : EReal) (f : ι → EReal) : max b (s.fold max b f) = s.fold max b f :=
  max_eq_right ((Finset.le_fold_max b).mpr (Or.inl le_rfl))

/-- The pattern 0x3F800000 is the extended real 1. -/
theorem ofBits_one_f32 : Ideal.ofBits .f32 0x3F800000#32 = 1 := IdealRules.sign_bit.ideal_onePat .f32

/-- A product of an [M, K] by a [K, N] array into the zero accumulator, through a contraction record D whose index maps
    are the plain ones (left operand at (row, k), right at (k, column)), read at (p, j). -/
theorem matmul_rowcol {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.RowOps

end
-- ==== Proof.KernelDots.lean ====
/-
  The idealized kernel's four matrix products, read at coordinates.

  Each contracts the second axis of its left operand with the first of its right one, with no batch axis, so the product
  into the zero accumulator at (p, j) is the sum over k of left (p, k) · right (k, j): for the 512 × 512 by 512 × 1024
  product of the first layer, the two 512 × 1024 by 1024 × 64 products of the code's mean and log-variance, the
  512 × 64 by 64 × 1024 product of the decoder's hidden layer, and the two 512 × 1024 by 1024 × 512 products of the
  reconstruction's logits and log-variance.
-/
import proofs.«125106_j71983651881070_1_alg».proof.Proof.Gen.KernelIdeal
import proofs.«125106_j71983651881070_1_alg».proof.Proof.RowOps

noncomputable section

open Idealize.ShloMosaic Idealize.ShloMosaic.ValueIdx

namespace Cert.KernelIdeal.Rows

open Cert.KernelIdeal Cert.KernelIdeal.Gen Cert.RowOps

abbrev dotA := dot_S512x512_S512x1024_S512x1024_1_0_0_1_n_n
abbrev dotB := dot_S512x1024_S1024x64_S512x64_1_0_0_1_n_n
abbrev dotC := dot_S512x64_S64x1024_S512x1024_1_0_0_1_n_n
abbrev dotD := dot_S512x1024_S1024x512_S512x512_1_0_0_1_n_n

theorem mmA {φ₁ φ₂ : FTy} (lhs : FVec Ideal S512x512 φ₁) (rhs : FVec Ideal S512x1024 φ₂) (p : Fin 512) (j : Fin 1024) :
    FloatOps.matmul dotA none lhs rhs (constant S512x1024 .f32 0x00000000#32) (ix2 p j) = ∑ k : Fin 512, lhs (ix2 p k) * rhs (ix2 k j) :=
  matmul_rowcol dotA rfl rfl
    (fun i q => by
      unfold DotDims.lhsIdx
      rw [dif_neg (show ¬(0 : Fin S512x512.rank) ∈ dotA.lhsBatch by decide), dif_pos (show (0 : Fin S512x512.rank) ∈ dotA.lhsNonContracting by decide)]
      rfl)
    (fun i q => dotA.lhsIdx_val_of_single rfl i q) (fun i q => dotA.rhsIdx_val_of_single rfl i q)
    (fun i q => by
      unfold DotDims.rhsIdx
      rw [dif_neg (show ¬(1 : Fin S512x1024.rank) ∈ dotA.rhsBatch by decide), dif_pos (show (1 : Fin S512x1024.rank) ∈ dotA.rhsNonContracting by decide)]
      rfl)
    none lhs rhs p j

theorem mmB {φ₁ φ₂ : FTy} (lhs : FVec Ideal S512x1024 φ₁) (rhs : FVec Ideal S1024x64 φ₂) (p : Fin 512) (j : Fin 64) :
    FloatOps.matmul dotB none lhs rhs (constant S512x64 .f32 0x00000000#32) (ix2 p j) = ∑ k : Fin 1024, lhs (ix2 p k) * rhs (ix2 k j) :=
  matmul_rowcol dotB rfl rfl
    (fun i q => by
      unfold DotDims.lhsIdx
      rw [dif_neg (show ¬(0 : Fin S512x1024.rank) ∈ dotB.lhsBatch by decide), dif_pos (show (0 : Fin S512x1024.rank) ∈ dotB.lhsNonContracting by decide)]
      rfl)
    (fun i q => dotB.lhsIdx_val_of_single rfl i q) (fun i q => dotB.rhsIdx_val_of_single rfl i q)
    (fun i q => by
      unfold DotDims.rhsIdx
      rw [dif_neg (show ¬(1 : Fin S1024x64.rank) ∈ dotB.rhsBatch by decide), dif_pos (show (1 : Fin S1024x64.rank) ∈ dotB.rhsNonContracting by decide)]
      rfl)
    none lhs rhs p j

theorem mmC {φ₁ φ₂ : FTy} (lhs : FVec Ideal S512x64 φ₁) (rhs : FVec Ideal S64x1024 φ₂) (p : Fin 512) (j : Fin 1024) :
    FloatOps.matmul dotC none lhs rhs (constant S512x1024 .f32 0x00000000#32) (ix2 p j) = ∑ k : Fin 64, lhs (ix2 p k) * rhs (ix2 k j) :=
  matmul_rowcol dotC rfl rfl
    (fun i q => by
      unfold DotDims.lhsIdx
      rw [dif_neg (show ¬(0 : Fin S512x64.rank) ∈ dotC.lhsBatch by decide), dif_pos (show (0 : Fin S512x64.rank) ∈ dotC.lhsNonContracting by decide)]
      rfl)
    (fun i q => dotC.lhsIdx_val_of_single rfl i q) (fun i q => dotC.rhsIdx_val_of_single rfl i q)
    (fun i q => by
      unfold DotDims.rhsIdx
      rw [dif_neg (show ¬(1 : Fin S64x1024.rank) ∈ dotC.rhsBatch by decide), dif_pos (show (1 : Fin S64x1024.rank) ∈ dotC.rhsNonContracting by decide)]
      rfl)
    none lhs rhs p j

theorem mmD {φ₁ φ₂ : FTy} (lhs : FVec Ideal S512x1024 φ₁) (rhs : FVec Ideal S1024x512 φ₂) (p : Fin 512) (j : Fin 512) :
    FloatOps.matmul dotD none lhs rhs (constant S512x512 .f32 0x00000000#32) (ix2 p j) = ∑ k : Fin 1024, lhs (ix2 p k) * rhs (ix2 k j) :=
  matmul_rowcol dotD rfl rfl
    (fun i q => by
      unfold DotDims.lhsIdx
      rw [dif_neg (show ¬(0 : Fin S512x1024.rank) ∈ dotD.lhsBatch by decide), dif_pos (show (0 : Fin S512x1024.rank) ∈ dotD.lhsNonContracting by decide)]
      rfl)
    (fun i q => dotD.lhsIdx_val_of_single rfl i q) (fun i q => dotD.rhsIdx_val_of_single rfl i q)
    (fun i q => by
      unfold DotDims.rhsIdx
      rw [dif_neg (show ¬(1 : Fin S1024x512.rank) ∈ dotD.rhsBatch by decide), dif_pos (show (1 : Fin S1024x512.rank) ∈ dotD.rhsNonContracting by decide)]
      rfl)
    none lhs rhs p j

end Cert.KernelIdeal.Rows

end
-- ==== Proof.KernelEnc.lean ====
/-
  The idealized kernel's encoder, one row at a time.

  At the extended reals a change of float format is the identity, so a block's row p goes through the first layer as
  tanh (Σ_d x[p, d] · W₁[d, j] + b₁[j]), the code's mean and log-variance are affine in that hidden row, and the
  product into the decoder's hidden layer is Σₗ z[p, l] · W₄[l, j] with z the reparameterised sample of row p: every
  entry of row p of each intermediate block depends on row p of the data and noise blocks only.
-/
import proofs.«125106_j71983651881070_1_alg».proof.Proof.Gen.KernelIdeal.Skeleton
import proofs.«125106_j71983651881070_1_alg».proof.Proof.RowSpec
import proofs.«125106_j71983651881070_1_alg».proof.Proof.KernelDots

noncomputable section

open Idealize.ShloMosaic Idealize.ShloMosaic.ValueIdx

namespace Cert.KernelIdeal.Rows

open Cert.KernelIdeal Cert.KernelIdeal.Gen Cert.VaeRow Cert.RowOps

/-- The first layer's block at (p, j): tanh of the affine layer on row p of the data block. -/
theorem hidden_apply (v0 : Vec Ideal S512x512 .f32) (v3 : Vec Ideal S512x1024 .bf16) (v6 : Vec Ideal S1024 .f32)
    (p : Fin 512) (j : Fin 1024) :
    k0_pay2 (F := Ideal) v0 v3 v6 (ix2 p j) = tanhLayer v3 v6 (fun d => v0 (ix2 p d)) j := by
  unfold k0_pay2 tanhLayer affine
  refine congrArg Ideal.tanh (congrArg₂ (· + ·) ((mmA _ _ p j).trans ?_) (row_spread_apply v6 _ _ p j))
  simp only [shapeCast_self]
  rfl

/-- The code's mean block at (p, l): affine in the hidden row of p. -/
theorem mean_apply (v0 : Vec Ideal S512x512 .f32) (v3 : Vec Ideal S512x1024 .bf16) (v6 : Vec Ideal S1024 .f32)
    (v12 : Vec Ideal S1024x64 .bf16) (v15 : Vec Ideal S64 .f32) (p : Fin 512) (l : Fin 64) :
    k0_pay3 (F := Ideal) v0 v3 v6 v12 v15 (ix2 p l) = affine v12 v15 (tanhLayer v3 v6 (fun d => v0 (ix2 p d))) l := by
  unfold k0_pay3 affine
  refine congrArg₂ (· + ·) ((mmB _ _ p l).trans (Finset.sum_congr rfl fun k _ => ?_)) (row_spread_apply v15 _ _ p l)
  rw [shapeCast_self]
  exact congrArg (· * v12 (ix2 k l)) (hidden_apply v0 v3 v6 p k)

/-- The code's log-variance block at (p, l), likewise. -/
theorem logvar_apply (v0 : Vec Ideal S512x512 .f32) (v3 : Vec Ideal S512x1024 .bf16) (v6 : Vec Ideal S1024 .f32)
    (v20 : Vec Ideal S1024x64 .bf16) (v23 : Vec Ideal S64 .f32) (p : Fin 512) (l : Fin 64) :
    k0_pay4 (F := Ideal) v0 v3 v6 v20 v23 (ix2 p l) = affine v20 v23 (tanhLayer v3 v6 (fun d => v0 (ix2 p d))) l := by
  unfold k0_pay4 affine
  refine congrArg₂ (· + ·) ((mmB _ _ p l).trans (Finset.sum_congr rfl fun k _ => ?_)) (row_spread_apply v23 _ _ p l)
  rw [shapeCast_self]
  exact congrArg (· * v20 (ix2 k l)) (hidden_apply v0 v3 v6 p k)

/-- The product into the decoder's hidden layer at (p, j): the sum over the code's coordinates of row p's sample times W₄. -/
theorem decProduct_apply (v0 : Vec Ideal S512x512 .f32) (v1 : Vec Ideal S512x64 .f32) (v3 : Vec Ideal S512x1024 .bf16)
    (v6 : Vec Ideal S1024 .f32) (v12 : Vec Ideal S1024x64 .bf16) (v15 : Vec Ideal S64 .f32) (v20 : Vec Ideal S1024x64 .bf16)
    (v23 : Vec Ideal S64 .f32) (v33 : Vec Ideal S64x1024 .bf16) (p : Fin 512) (j : Fin 1024) :
    k0_pay5 (F := Ideal) v0 v1 v3 v6 v12 v15 v20 v23 v33 (ix2 p j)
      = ∑ k : Fin 64, sample (affine v12 v15 (tanhLayer v3 v6 (fun d => v0 (ix2 p d))))
          (affine v20 v23 (tanhLayer v3 v6 (fun d => v0 (ix2 p d)))) (fun l => v1 (ix2 p l)) k * v33 (ix2 k j) := by
  unfold k0_pay5
  refine (mmC _ _ p j).trans (Finset.sum_congr rfl fun k _ => ?_)
  rw [shapeCast_self]
  refine congrArg (· * v33 (ix2 k j)) ?_
  unfold sample
  exact congrArg₂ (· + ·) (mean_apply v0 v3 v6 v12 v15 p k)
    (congrArg (· * v1 (ix2 p k)) (congrArg Ideal.exp (congrArg (half * ·) (logvar_apply v0 v3 v6 v20 v23 p k))))

/-- The decoder's first bias as a one-row block, at (0, j): the bias at j. -/
theorem biasRow_apply (v36 : Vec Ideal S1024 .f32) (j : Fin 1024) :
    k0_pay6 (F := Ideal) v36 (ix2 (0 : Fin 1) j) = v36 (ix1 j) := by
  unfold k0_pay6
  exact shapeCast_a_1a_apply v36 _ 0 j

end Cert.KernelIdeal.Rows

end
-- ==== Proof.KernelDec.lean ====
/-
  The idealized kernel's decoder and the two loss terms, one row at a time.

  The decoder's hidden row of p is tanh of the product block plus the bias row; the reconstruction's logits and
  log-variance are affine in it; the softmax of row p takes that row's maximum (the fold of max from −∞ over its 512
  entries), exponentiates the shifted row and divides by the row's sum; the log-likelihood's summand at (p, d) is
  lvx + (x − mux)² · exp (0 − lvx), and 0 − y = −y on the extended reals; the Kullback–Leibler term of row p is −½ times the
  sum over the code's 64 coordinates. Nothing of row p depends on another row of the block.
-/
import proofs.«125106_j71983651881070_1_alg».proof.Proof.Gen.KernelIdeal.Skeleton
import proofs.«125106_j71983651881070_1_alg».proof.Proof.RowSpec
import proofs.«125106_j71983651881070_1_alg».proof.Proof.KernelDots

noncomputable section

open Idealize.ShloMosaic Idealize.ShloMosaic.ValueIdx

namespace Cert.KernelIdeal.Rows

open Cert.KernelIdeal Cert.KernelIdeal.Gen Cert.VaeRow Cert.RowOps

/-- The decoder's hidden block: tanh of the product block plus the bias row spread over the rows. -/
def dHid (v35 : FVec Ideal S512x1024 .f32) (v37 : FVec Ideal S1x1024 .f32) : FVec Ideal S512x1024 .f32 :=
  tanh (addf v35 (broadcastTo S512x1024 v37 broadcasts_S1x1024_S512x1024))

/-- An affine layer on the decoder's hidden block, into 512 columns. -/
def dAffine (v35 : FVec Ideal S512x1024 .f32) (v37 : FVec Ideal S1x1024 .f32) (W : FVec Ideal S1024x512 .bf16)
    (b : FVec Ideal S512 .f32) : FVec Ideal S512x512 .f32 :=
  addf (matmul dot_S512x1024_S1024x512_S512x512_1_0_0_1_n_n none (truncf .bf16 (dHid v35 v37) bitsLt_bf16_f32)
      (shapeCast S1024x512 W shapeCasts_S1024x512_S1024x512) (constant S512x512 .f32 0x00000000#32))
    (broadcastTo S512x512 (shapeCast S1x512 b shapeCasts_S512_S1x512) broadcasts_S1x512_S512x512)

/-- exp of each row shifted by its maximum. -/
def eShift (g : FVec Ideal S512x512 .f32) : FVec Ideal S512x512 .f32 :=
  exp (subf g (broadcastTo S512x512 (shapeCast S512x1
    (multiReduction .maximumf [1] S512 g 0xFF800000#32 reduces_S512x512_S512 (.inl rfl) rfl) shapeCasts_S512_S512x1)
    broadcasts_S512x1_S512x512))

/-- The softmax of each row. -/
def sMax (g : FVec Ideal S512x512 .f32) : FVec Ideal S512x512 .f32 :=
  divf (eShift g) (broadcastTo S512x512 (shapeCast S512x1
    (multiReduction .add [1] S512 (eShift g) 0x00000000#32 reduces_S512x512_S512 (.inl rfl) rfl) shapeCasts_S512_S512x1)
    broadcasts_S512x1_S512x512)

set_option maxRecDepth 65536 in
/-- The log-likelihood's summand block before the constant log 2π, as those blocks' composition. -/
theorem summand_eq (v0 : FVec Ideal S512x512 .f32) (v35 : FVec Ideal S512x1024 .f32) (v37 : FVec Ideal S1x1024 .f32)
    (v42 : FVec Ideal S1024x512 .bf16) (v45 : FVec Ideal S512 .f32) (v59 : FVec Ideal S1024x512 .bf16) (v62 : FVec Ideal S512 .f32) :
    k0_pay8 (F := Ideal) v0 v35 v37 v42 v45 v59 v62
      = addf (dAffine v35 v37 v59 v62)
          (mulf (mulf (subf v0 (sMax (dAffine v35 v37 v42 v45))) (subf v0 (sMax (dAffine v35 v37 v42 v45))))
            (exp (subf (broadcast S512x512 (Scalar.ofBits .f32 0x00000000#32)) (dAffine v35 v37 v59 v62)))) := rfl

/-- The decoder's hidden row of p. -/
def hdRow (v35 : FVec Ideal S512x1024 .f32) (v37 : FVec Ideal S1x1024 .f32) (p : Fin 512) : Fin 1024 → EReal :=
  fun k => Ideal.tanh (v35 (ix2 p k) + v37 (ix2 (0 : Fin 1) k))

theorem dHid_apply (v35 : FVec Ideal S512x1024 .f32) (v37 : FVec Ideal S1x1024 .f32) (p : Fin 512) (k : Fin 1024) :
    dHid v35 v37 (ix2 p k) = hdRow v35 v37 p k := by
  unfold dHid hdRow
  exact congrArg Ideal.tanh (congrArg (v35 (ix2 p k) + ·) (broadcastTo_1b_ab_apply v37 _ p k))

theorem dAffine_apply (v35 : FVec Ideal S512x1024 .f32) (v37 : FVec Ideal S1x1024 .f32) (W : FVec Ideal S1024x512 .bf16)
    (b : FVec Ideal S512 .f32) (p d : Fin 512) :
    dAffine v35 v37 W b (ix2 p d) = affine W b (hdRow v35 v37 p) d := by
  unfold dAffine affine
  refine congrArg₂ (· + ·) ((mmD _ _ p d).trans (Finset.sum_congr rfl fun k _ => ?_)) (row_spread_apply b _ _ p d)
  rw [shapeCast_self]
  exact congrArg (· * W (ix2 k d)) (dHid_apply v35 v37 p k)

theorem eShift_apply (g : FVec Ideal S512x512 .f32) (p d : Fin 512) :
    eShift g (ix2 p d) = expShift (fun k => g (ix2 p k)) d := by
  unfold eShift expShift rowMax
  refine congrArg Ideal.exp (congrArg (g (ix2 p d) - ·) ?_)
  exact (column_spread_apply _ _ _ p d).trans (rowMax_apply g _ _ _ p)

theorem sMax_apply (g : FVec Ideal S512x512 .f32) (p d : Fin 512) :
    sMax g (ix2 p d) = softmax (fun k => g (ix2 p k)) d := by
  unfold sMax softmax
  refine congrArg₂ Ideal.div (eShift_apply g p d) ?_
  refine (column_spread_apply _ _ _ p d).trans ((rowSum_apply (eShift g) _ _ _ p).trans ?_)
  exact Finset.sum_congr rfl fun k _ => eShift_apply g p k

/-- The summand block at (p, d): lvx + (x − mux)² · exp (−lvx) of row p's reconstruction mean and log-variance. -/
theorem summand_apply (v0 : FVec Ideal S512x512 .f32) (v35 : FVec Ideal S512x1024 .f32) (v37 : FVec Ideal S1x1024 .f32)
    (v42 : FVec Ideal S1024x512 .bf16) (v45 : FVec Ideal S512 .f32) (v59 : FVec Ideal S1024x512 .bf16) (v62 : FVec Ideal S512 .f32)
    (p d : Fin 512) :
    k0_pay8 (F := Ideal) v0 v35 v37 v42 v45 v59 v62 (ix2 p d)
      = affine v59 v62 (hdRow v35 v37 p) d
        + (v0 (ix2 p d) - softmax (affine v42 v45 (hdRow v35 v37 p)) d)
          * (v0 (ix2 p d) - softmax (affine v42 v45 (hdRow v35 v37 p)) d)
          * Ideal.exp (-(affine v59 v62 (hdRow v35 v37 p) d)) := by
  rw [summand_eq]
  have hg : (fun k => dAffine v35 v37 v42 v45 (ix2 p k)) = affine v42 v45 (hdRow v35 v37 p) :=
    funext fun k => dAffine_apply v35 v37 v42 v45 p k
  have hm : sMax (dAffine v35 v37 v42 v45) (ix2 p d) = softmax (affine v42 v45 (hdRow v35 v37 p)) d := by
    rw [sMax_apply, hg]
  have hl : dAffine v35 v37 v59 v62 (ix2 p d) = affine v59 v62 (hdRow v35 v37 p) d := dAffine_apply v35 v37 v59 v62 p d
  show dAffine v35 v37 v59 v62 (ix2 p d)
      + (v0 (ix2 p d) - sMax (dAffine v35 v37 v42 v45) (ix2 p d)) * (v0 (ix2 p d) - sMax (dAffine v35 v37 v42 v45) (ix2 p d))
        * Ideal.exp (Ideal.ofBits .f32 0x00000000#32 - dAffine v35 v37 v59 v62 (ix2 p d)) = _
  rw [hm, hl, Ideal.ofBits_zero_f32, zero_sub]

/-- The Kullback–Leibler block at row p. -/
theorem kl_apply (v18 v26 : FVec Ideal S512x64 .f32) (p : Fin 512) :
    k0_pay7 (F := Ideal) v18 v26 (ix1 p) = kl (fun l => v18 (ix2 p l)) (fun l => v26 (ix2 p l)) := by
  unfold k0_pay7 kl
  exact congrArg (mhalf * ·) (rowSum_apply _ _ _ _ p)

/-- The stored block at row p: −½ times the row sum of the summands plus their constant, minus the Kullback–Leibler term. -/
theorem stored_apply (v74 : FVec Ideal S512 .f32) (v81 v82 : FVec Ideal S512x512 .f32) (p : Fin 512) :
    k0_pay1 (F := Ideal) v74 v81 v82 (ix1 p) = mhalf * (∑ d : Fin 512, (v81 (ix2 p d) + v82 (ix2 p d))) - v74 (ix1 p) := by
  unfold k0_pay1
  exact congrArg (· - v74 (ix1 p)) (congrArg (mhalf * ·) (rowSum_apply _ _ _ _ p))

end Cert.KernelIdeal.Rows

end
-- ==== Proof.KernelRow.lean ====
/-
  What the idealized kernel stores for row p of a block: the row's evidence lower bound.

  The stored value is −½ times the row sum of lvx + (x − mux)² · exp (−lvx) + log 2π, minus the Kullback–Leibler term,
  with every intermediate read at row p: the bound of row p of the data block and row p of the noise block, under the
  weights and biases the resident windows hold.
-/
import proofs.«125106_j71983651881070_1_alg».proof.Proof.KernelEnc
import proofs.«125106_j71983651881070_1_alg».proof.Proof.KernelDec

noncomputable section

open Idealize.ShloMosaic Idealize.ShloMosaic.ValueIdx

namespace Cert.KernelIdeal.Rows

open Cert.KernelIdeal Cert.KernelIdeal.Gen Cert.VaeRow Cert.RowOps

theorem row_value (x0 : FVec Ideal S512x512 .f32) (x1 : FVec Ideal S512x64 .f32) (x2 : FVec Ideal S512x1024 .bf16)
    (x3 : FVec Ideal S1024 .f32) (x4 : FVec Ideal S1024x64 .bf16) (x5 : FVec Ideal S64 .f32) (x6 : FVec Ideal S1024x64 .bf16)
    (x7 : FVec Ideal S64 .f32) (x8 : FVec Ideal S64x1024 .bf16) (x9 : FVec Ideal S1024 .f32) (x10 : FVec Ideal S1024x512 .bf16)
    (x11 : FVec Ideal S512 .f32) (x12 : FVec Ideal S1024x512 .bf16) (x13 : FVec Ideal S512 .f32) (p : Fin 512) :
    k0_pay1 (F := Ideal) (k0_pay7 (k0_pay3 x0 x2 x3 x4 x5) (k0_pay4 x0 x2 x3 x6 x7))
        (k0_pay8 x0 (k0_pay5 x0 x1 x2 x3 x4 x5 x6 x7 x8) (k0_pay6 x9) x10 x11 x12 x13) (k0_pay9 (F := Ideal)) (ix1 p)
      = elbo ⟨x2, x3, x4, x5, x6, x7, x8, x9, x10, x11, x12, x13⟩ (fun d => x0 (ix2 p d)) (fun l => x1 (ix2 p l)) := by
  rw [stored_apply, kl_apply]
  have hm : (fun l => k0_pay3 (F := Ideal) x0 x2 x3 x4 x5 (ix2 p l))
      = affine x4 x5 (tanhLayer x2 x3 (fun d => x0 (ix2 p d))) := funext fun l => mean_apply x0 x2 x3 x4 x5 p l
  have hv : (fun l => k0_pay4 (F := Ideal) x0 x2 x3 x6 x7 (ix2 p l))
      = affine x6 x7 (tanhLayer x2 x3 (fun d => x0 (ix2 p d))) := funext fun l => logvar_apply x0 x2 x3 x6 x7 p l
  have hh : hdRow (k0_pay5 (F := Ideal) x0 x1 x2 x3 x4 x5 x6 x7 x8) (k0_pay6 (F := Ideal) x9) p
      = tanhLayer x8 x9 (sample (affine x4 x5 (tanhLayer x2 x3 (fun d => x0 (ix2 p d))))
          (affine x6 x7 (tanhLayer x2 x3 (fun d => x0 (ix2 p d)))) (fun l => x1 (ix2 p l))) := by
    funext k
    unfold hdRow
    rw [decProduct_apply, biasRow_apply]
    rfl
  rw [hm, hv]
  unfold elbo loglik codeMean codeLogvar decHidden
  refine congrArg (· - kl _ _) (congrArg (mhalf * ·) (Finset.sum_congr rfl fun d _ => ?_))
  rw [summand_apply, hh]
  rfl

end Cert.KernelIdeal.Rows

end
-- ==== Proof.KernelValue.lean ====
/-
  The idealized kernel's result array, and its result.

  Grid point t stages rows 512 t … 512 t + 511 of the data and of the noise and all of every weight and bias; the weights
  reach the kernel through a change of float format on the host, the identity on the extended reals. So what point t writes
  back is the bounds of those 512 rows, the 128 points' blocks tile the 65536 rows, and the result array ends holding the
  bound of every row. The host then takes the mean.
-/
import proofs.«125106_j71983651881070_1_alg».proof.Proof.Gen.KernelIdeal.Frame
import proofs.«125106_j71983651881070_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RowValue

open Cert.KernelIdeal Cert.KernelIdeal.Gen Cert.VaeRow Cert.KernelIdeal.Rows

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-- The data, noise and output windows move with the grid point along the rows. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_14.index t (0 : Fin 1) = t.val :=
  (by decide +kernel : ∀ t : Fin grid0.N, _)

/-- The weight windows stay at block (0, 0): the whole array. -/
theorem idx_mats : ∀ t : Fin cfg0.N, win0_2.index t (0 : Fin 2) = 0 ∧ win0_2.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_10.index t (0 : Fin 2) = 0 ∧ win0_10.index t (1 : Fin 2) = 0
    ∧ win0_12.index t (0 : Fin 2) = 0 ∧ win0_12.index t (1 : Fin 2) = 0 :=
  (by decide +kernel : ∀ t : Fin grid0.N, _)

/-- The bias windows stay at block 0: the whole vector. -/
theorem idx_vecs : ∀ t : Fin cfg0.N, win0_3.index t (0 : Fin 1) = 0 ∧ win0_5.index t (0 : Fin 1) = 0
    ∧ win0_7.index t (0 : Fin 1) = 0 ∧ win0_9.index t (0 : Fin 1) = 0
    ∧ win0_11.index t (0 : Fin 1) = 0 ∧ win0_13.index t (0 : Fin 1) = 0 :=
  (by decide +kernel : ∀ t : Fin grid0.N, _)

/-- The first weight as the region finds it: the launched array through the host's change of format, the identity. -/
theorem V_v0 (c : Dev nD) (j : S512x1024.Idx) : V m c main_v0 j = m ((c : Thread nD τ).loc main_arg2) j := by
  have e : V m c main_v0 = m ((c : Thread nD τ).loc main_arg2) := by
    show StableHlo.after hostOps0 (fun b => m (c, b)) (Proc.devRef .tc main_v0) = _
    after_results
    rfl
  exact congrFun e j

/-- The first layer's weight: its window holds the whole array at every point. -/
theorem blk2 (c : Dev nD) (t : Fin cfg0.N) (j : S512x1024.Idx) : iblk m c 2 t j = m ((c : Thread nD τ).loc main_arg2) j := by
  obtain ⟨e0, e1, -⟩ := idx_mats t
  refine Eq.trans ?_ (V_v0 m c j)
  show V m c main_v0 (((cfg0.win 2).blk t).view.emb j) = V m c main_v0 j
  refine congrArg (V m c main_v0) (funext fun a => Fin.ext ?_)
  match a with
  | ⟨0, _⟩ => show win0_2.index t (0 : Fin 2) * 512 + 1 * (j 0).val = (j 0).val; omega
  | ⟨1, _⟩ => show win0_2.index t (1 : Fin 2) * 1024 + 1 * (j 1).val = (j 1).val; omega

/-- The code mean's weight as the region finds it: the launched array through the host's change of format, the identity. -/
theorem V_v1 (c : Dev nD) (j : S1024x64.Idx) : V m c main_v1 j = m ((c : Thread nD τ).loc main_arg4) j := by
  have e : V m c main_v1 = m ((c : Thread nD τ).loc main_arg4) := by
    show StableHlo.after hostOps0 (fun b => m (c, b)) (Proc.devRef .tc main_v1) = _
    after_results
    rfl
  exact congrFun e j

/-- Its window holds the whole array at every point. -/
theorem blk4 (c : Dev nD) (t : Fin cfg0.N) (j : S1024x64.Idx) : iblk m c 4 t j = m ((c : Thread nD τ).loc main_arg4) j := by
  obtain ⟨-, -, e0, e1, -, -, -, -, -, -, -, -⟩ := idx_mats t
  refine Eq.trans ?_ (V_v1 m c j)
  show V m c main_v1 (((cfg0.win 4).blk t).view.emb j) = V m c main_v1 j
  refine congrArg (V m c main_v1) (funext fun a => Fin.ext ?_)
  match a with
  | ⟨0, _⟩ => show win0_4.index t (0 : Fin 2) * 1024 + 1 * (j 0).val = (j 0).val; omega
  | ⟨1, _⟩ => show win0_4.index t (1 : Fin 2) * 64 + 1 * (j 1).val = (j 1).val; omega

/-- The code log-variance's weight as the region finds it, likewise. -/
theorem V_v2 (c : Dev nD) (j : S1024x64.Idx) : V m c main_v2 j = m ((c : Thread nD τ).loc main_arg6) j := by
  have e : V m c main_v2 = m ((c : Thread nD τ).loc main_arg6) := by
    show StableHlo.after hostOps0 (fun b => m (c, b)) (Proc.devRef .tc main_v2) = _
    after_results
    rfl
  exact congrFun e j

/-- Its window holds the whole array at every point. -/
theorem blk6 (c : Dev nD) (t : Fin cfg0.N) (j : S1024x64.Idx) : iblk m c 6 t j = m ((c : Thread nD τ).loc main_arg6) j := by
  obtain ⟨-, -, -, -, e0, e1, -, -, -, -, -, -⟩ := idx_mats t
  refine Eq.trans ?_ (V_v2 m c j)
  show V m c main_v2 (((cfg0.win 6).blk t).view.emb j) = V m c main_v2 j
  refine congrArg (V m c main_v2) (funext fun a => Fin.ext ?_)
  match a with
  | ⟨0, _⟩ => show win0_6.index t (0 : Fin 2) * 1024 + 1 * (j 0).val = (j 0).val; omega
  | ⟨1, _⟩ => show win0_6.index t (1 : Fin 2) * 64 + 1 * (j 1).val = (j 1).val; omega

/-- The decoder's hidden-layer weight as the region finds it, likewise. -/
theorem V_v3 (c : Dev nD) (j : S64x1024.Idx) : V m c main_v3 j = m ((c : Thread nD τ).loc main_arg8) j := by
  have e : V m c main_v3 = m ((c : Thread nD τ).loc main_arg8) := by
    show StableHlo.after hostOps0 (fun b => m (c, b)) (Proc.devRef .tc main_v3) = _
    after_results
    rfl
  exact congrFun e j

/-- Its window holds the whole array at every point. -/
theorem blk8 (c : Dev nD) (t : Fin cfg0.N) (j : S64x1024.Idx) : iblk m c 8 t j = m ((c : Thread nD τ).loc main_arg8) j := by
  obtain ⟨-, -, -, -, -, -, e0, e1, -, -, -, -⟩ := idx_mats t
  refine Eq.trans ?_ (V_v3 m c j)
  show V m c main_v3 (((cfg0.win 8).blk t).view.emb j) = V m c main_v3 j
  refine congrArg (V m c main_v3) (funext fun a => Fin.ext ?_)
  match a with
  | ⟨0, _⟩ => show win0_8.index t (0 : Fin 2) * 64 + 1 * (j 0).val = (j 0).val; omega
  | ⟨1, _⟩ => show win0_8.index t (1 : Fin 2) * 1024 + 1 * (j 1).val = (j 1).val; omega

/-- The reconstruction logits' weight as the region finds it, likewise. -/
theorem V_v4 (c : Dev nD) (j : S1024x512.Idx) : V m c main_v4 j = m ((c : Thread nD τ).loc main_arg10) j := by
  have e : V m c main_v4 = m ((c : Thread nD τ).loc main_arg10) := by
    show StableHlo.after hostOps0 (fun b => m (c, b)) (Proc.devRef .tc main_v4) = _
    after_results
    rfl
  exact congrFun e j

/-- Its window holds the whole array at every point. -/
theorem blk10 (c : Dev nD) (t : Fin cfg0.N) (j : S1024x512.Idx) : iblk m c 10 t j = m ((c : Thread nD τ).loc main_arg10) j := by
  obtain ⟨-, -, -, -, -, -, -, -, e0, e1, -, -⟩ := idx_mats t
  refine Eq.trans ?_ (V_v4 m c j)
  show V m c main_v4 (((cfg0.win 10).blk t).view.emb j) = V m c main_v4 j
  refine congrArg (V m c main_v4) (funext fun a => Fin.ext ?_)
  match a with
  | ⟨0, _⟩ => show win0_10.index t (0 : Fin 2) * 1024 + 1 * (j 0).val = (j 0).val; omega
  | ⟨1, _⟩ => show win0_10.index t (1 : Fin 2) * 512 + 1 * (j 1).val = (j 1).val; omega

/-- The reconstruction log-variance's weight as the region finds it, likewise. -/
theorem V_v5 (c : Dev nD) (j : S1024x512.Idx) : V m c main_v5 j = m ((c : Thread nD τ).loc main_arg12) j := by
  have e : V m c main_v5 = m ((c : Thread nD τ).loc main_arg12) := by
    show StableHlo.after hostOps0 (fun b => m (c, b)) (Proc.devRef .tc main_v5) = _
    after_results
    rfl
  exact congrFun e j

/-- Its window holds the whole array at every point. -/
theorem blk12 (c : Dev nD) (t : Fin cfg0.N) (j : S1024x512.Idx) : iblk m c 12 t j = m ((c : Thread nD τ).loc main_arg12) j := by
  obtain ⟨-, -, -, -, -, -, -, -, -, -, e0, e1⟩ := idx_mats t
  refine Eq.trans ?_ (V_v5 m c j)
  show V m c main_v5 (((cfg0.win 12).blk t).view.emb j) = V m c main_v5 j
  refine congrArg (V m c main_v5) (funext fun a => Fin.ext ?_)
  match a with
  | ⟨0, _⟩ => show win0_12.index t (0 : Fin 2) * 1024 + 1 * (j 0).val = (j 0).val; omega
  | ⟨1, _⟩ => show win0_12.index t (1 : Fin 2) * 512 + 1 * (j 1).val = (j 1).val; omega

/-- The first layer's bias: its window holds the whole vector at every point, and no host operation writes it. -/
theorem blk3 (c : Dev nD) (t : Fin cfg0.N) (j : S1024.Idx) : iblk m c 3 t j = m ((c : Thread nD τ).loc main_arg3) j := by
  obtain ⟨e0, -, -, -, -, -⟩ := idx_vecs t
  refine Eq.trans ?_ (congrFun (V_main_arg3 m c) j)
  show V m c main_arg3 (((cfg0.win 3).blk t).view.emb j) = V m c main_arg3 j
  refine congrArg (V m c main_arg3) (funext fun a => Fin.ext ?_)
  match a with
  | ⟨0, _⟩ => show win0_3.index t (0 : Fin 1) * 1024 + 1 * (j 0).val = (j 0).val; omega

/-- The code mean's bias, likewise. -/
theorem blk5 (c : Dev nD) (t : Fin cfg0.N) (j : S64.Idx) : iblk m c 5 t j = m ((c : Thread nD τ).loc main_arg5) j := by
  obtain ⟨-, e0, -, -, -, -⟩ := idx_vecs t
  refine Eq.trans ?_ (congrFun (V_main_arg5 m c) j)
  show V m c main_arg5 (((cfg0.win 5).blk t).view.emb j) = V m c main_arg5 j
  refine congrArg (V m c main_arg5) (funext fun a => Fin.ext ?_)
  match a with
  | ⟨0, _⟩ => show win0_5.index t (0 : Fin 1) * 64 + 1 * (j 0).val = (j 0).val; omega

/-- The code log-variance's bias, likewise. -/
theorem blk7 (c : Dev nD) (t : Fin cfg0.N) (j : S64.Idx) : iblk m c 7 t j = m ((c : Thread nD τ).loc main_arg7) j := by
  obtain ⟨-, -, e0, -, -, -⟩ := idx_vecs t
  refine Eq.trans ?_ (congrFun (V_main_arg7 m c) j)
  show V m c main_arg7 (((cfg0.win 7).blk t).view.emb j) = V m c main_arg7 j
  refine congrArg (V m c main_arg7) (funext fun a => Fin.ext ?_)
  match a with
  | ⟨0, _⟩ => show win0_7.index t (0 : Fin 1) * 64 + 1 * (j 0).val = (j 0).val; omega

/-- The decoder's hidden-layer bias, likewise. -/
theorem blk9 (c : Dev nD) (t : Fin cfg0.N) (j : S1024.Idx) : iblk m c 9 t j = m ((c : Thread nD τ).loc main_arg9) j := by
  obtain ⟨-, -, -, e0, -, -⟩ := idx_vecs t
  refine Eq.trans ?_ (congrFun (V_main_arg9 m c) j)
  show V m c main_arg9 (((cfg0.win 9).blk t).view.emb j) = V m c main_arg9 j
  refine congrArg (V m c main_arg9) (funext fun a => Fin.ext ?_)
  match a with
  | ⟨0, _⟩ => show win0_9.index t (0 : Fin 1) * 1024 + 1 * (j 0).val = (j 0).val; omega

/-- The reconstruction logits' bias, likewise. -/
theorem blk11 (c : Dev nD) (t : Fin cfg0.N) (j : S512.Idx) : iblk m c 11 t j = m ((c : Thread nD τ).loc main_arg11) j := by
  obtain ⟨-, -, -, -, e0, -⟩ := idx_vecs t
  refine Eq.trans ?_ (congrFun (V_main_arg11 m c) j)
  show V m c main_arg11 (((cfg0.win 11).blk t).view.emb j) = V m c main_arg11 j
  refine congrArg (V m c main_arg11) (funext fun a => Fin.ext ?_)
  match a with
  | ⟨0, _⟩ => show win0_11.index t (0 : Fin 1) * 512 + 1 * (j 0).val = (j 0).val; omega

/-- The reconstruction log-variance's bias, likewise. -/
theorem blk13 (c : Dev nD) (t : Fin cfg0.N) (j : S512.Idx) : iblk m c 13 t j = m ((c : Thread nD τ).loc main_arg13) j := by
  obtain ⟨-, -, -, -, -, e0⟩ := idx_vecs t
  refine Eq.trans ?_ (congrFun (V_main_arg13 m c) j)
  show V m c main_arg13 (((cfg0.win 13).blk t).view.emb j) = V m c main_arg13 j
  refine congrArg (V m c main_arg13) (funext fun a => Fin.ext ?_)
  match a with
  | ⟨0, _⟩ => show win0_13.index t (0 : Fin 1) * 512 + 1 * (j 0).val = (j 0).val; omega

/-- Row p of point t's blocks is row 512 t + p of the whole arrays. -/
def rowOf (t : Fin cfg0.N) (p : Fin 512) : Fin 65536 :=
  ⟨512 * t.val + p.val, by have := t.isLt; have hN : cfg0.N = 128 := N_0; have := p.isLt; omega⟩

/-- The data window at point t, row p: row 512 t + p of the data. -/
theorem blk0 (c : Dev nD) (t : Fin cfg0.N) (p : Fin 512) (d : Fin 512) :
    iblk m c 0 t (ix2 p d) = m ((c : Thread nD τ).loc main_arg0) (ix2 (rowOf t p) d) := by
  obtain ⟨e0, e1, -⟩ := idx_rows t
  refine Eq.trans ?_ (congrFun (V_main_arg0 m c) _)
  show V m c main_arg0 (((cfg0.win 0).blk t).view.emb (ix2 p d)) = V m c main_arg0 (ix2 (rowOf t p) d)
  refine congrArg (V m c main_arg0) (funext fun a => Fin.ext ?_)
  match a with
  | ⟨0, _⟩ => show win0_0.index t (0 : Fin 2) * 512 + 1 * p.val = 512 * t.val + p.val; omega
  | ⟨1, _⟩ => show win0_0.index t (1 : Fin 2) * 512 + 1 * d.val = d.val; omega

/-- The noise window at point t, row p: row 512 t + p of the noise. -/
theorem blk1 (c : Dev nD) (t : Fin cfg0.N) (p : Fin 512) (l : Fin 64) :
    iblk m c 1 t (ix2 p l) = m ((c : Thread nD τ).loc main_arg1) (ix2 (rowOf t p) l) := by
  obtain ⟨-, -, e0, e1, -⟩ := idx_rows t
  refine Eq.trans ?_ (congrFun (V_main_arg1 m c) _)
  show V m c main_arg1 (((cfg0.win 1).blk t).view.emb (ix2 p l)) = V m c main_arg1 (ix2 (rowOf t p) l)
  refine congrArg (V m c main_arg1) (funext fun a => Fin.ext ?_)
  match a with
  | ⟨0, _⟩ => show win0_1.index t (0 : Fin 2) * 512 + 1 * p.val = 512 * t.val + p.val; omega
  | ⟨1, _⟩ => show win0_1.index t (1 : Fin 2) * 64 + 1 * l.val = l.val; omega

/-- The weights and biases as launched. -/
abbrev params (c : Dev nD) : Params :=
  ⟨m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13)⟩

/-- The bound of every row of the launched data and noise. -/
abbrev rows (c : Dev nD) : Buf (Elt Ideal) ((c : Thread nD τ).loc main_v6) :=
  elboRows (params m c) (m ((c : Thread nD τ).loc main_arg0)) (m ((c : Thread nD τ).loc main_arg1))

/-- What point t writes back is block t of the rows' bounds. -/
theorem flushed_eq (c : Dev nD) (t : Fin cfg0.N) :
    (dats m 0 c).flushed 14 t = ((cfg0.win 14).blk t).view.read (Elt Ideal) (rows m c) := by
  show (cfg0.win 14).cut (grid0.coords t) ((dats m 0 c).after 14 t) = _
  rw [after0_14]
  unfold out0_14
  rw [View.canon_unit_zero hz1]
  simp only [View.ld_unit_zero (S := S512x512) hz2, View.ld_unit_zero (S := S512x64) hz2, View.ld_unit_zero (S := S512x1024) hz2,
    View.ld_unit_zero (S := S1024) hz1, View.ld_unit_zero (S := S1024x64) hz2, View.ld_unit_zero (S := S64) hz1,
    View.ld_unit_zero (S := S64x1024) hz2, View.ld_unit_zero (S := S1024x512) hz2, View.ld_unit_zero (S := S512) hz1]
  obtain ⟨-, -, -, -, e14⟩ := idx_rows t
  funext y
  obtain ⟨p, rfl⟩ : ∃ p : Fin 512, y = ix1 p := ⟨y 0, eq_ix1 y⟩
  refine (row_value _ _ _ _ _ _ _ _ _ _ _ _ _ _ p).trans ?_
  have hi : ((cfg0.win 14).blk t).view.emb (ix1 p) = ix1 (rowOf t p) := funext fun a => Fin.ext (by
    match a with
    | ⟨0, _⟩ => show win0_14.index t (0 : Fin 1) * 512 + 1 * p.val = 512 * t.val + p.val; omega)
  show _ = rows m c (((cfg0.win 14).blk t).view.emb (ix1 p))
  rw [hi]
  show _ = elbo (params m c) (fun d => m ((c : Thread nD τ).loc main_arg0) (ix2 (rowOf t p) d)) (fun l => m ((c : Thread nD τ).loc main_arg1) (ix2 (rowOf t p) l))
  have h0 : (fun d => iblk m c 0 t (ix2 p d)) = fun d => m ((c : Thread nD τ).loc main_arg0) (ix2 (rowOf t p) d) := funext fun d => blk0 m c t p d
  have h1 : (fun l => iblk m c 1 t (ix2 p l)) = fun l => m ((c : Thread nD τ).loc main_arg1) (ix2 (rowOf t p) l) := funext fun l => blk1 m c t p l
  have h2 : iblk m c 2 t = m ((c : Thread nD τ).loc main_arg2) := funext (blk2 m c t)
  have h3 : iblk m c 3 t = m ((c : Thread nD τ).loc main_arg3) := funext (blk3 m c t)
  have h4 : iblk m c 4 t = m ((c : Thread nD τ).loc main_arg4) := funext (blk4 m c t)
  have h5 : iblk m c 5 t = m ((c : Thread nD τ).loc main_arg5) := funext (blk5 m c t)
  have h6 : iblk m c 6 t = m ((c : Thread nD τ).loc main_arg6) := funext (blk6 m c t)
  have h7 : iblk m c 7 t = m ((c : Thread nD τ).loc main_arg7) := funext (blk7 m c t)
  have h8 : iblk m c 8 t = m ((c : Thread nD τ).loc main_arg8) := funext (blk8 m c t)
  have h9 : iblk m c 9 t = m ((c : Thread nD τ).loc main_arg9) := funext (blk9 m c t)
  have h10 : iblk m c 10 t = m ((c : Thread nD τ).loc main_arg10) := funext (blk10 m c t)
  have h11 : iblk m c 11 t = m ((c : Thread nD τ).loc main_arg11) := funext (blk11 m c t)
  have h12 : iblk m c 12 t = m ((c : Thread nD τ).loc main_arg12) := funext (blk12 m c t)
  have h13 : iblk m c 13 t = m ((c : Thread nD τ).loc main_arg13) := funext (blk13 m c t)
  rw [h0, h1, h2, h3, h4, h5, h6, h7, h8, h9, h10, h11, h12, h13]

/-- An index of the result array is in point t's block iff its row is among that point's 512 rows. -/
theorem mem_blk (t : Fin cfg0.N) (i : S65536.Idx) :
    i ∈ ((cfg0.win 14).blk t).view.set ↔ ∀ a : Fin 1, win0_14.index t a * S512.size a ≤ (i a).val ∧ (i a).val < win0_14.index t a * S512.size a + S512.size a := by
  show i ∈ ((View.whole main_v6).slice (win0_14.rect t)).set ↔ _
  rw [View.set_slice_whole, Rect.mem_set_unit]
  exact Iff.rfl

/-- Every row is some point's: row i is written back by point i / 512. -/
theorem cover (i : S65536.Idx) : ∃ t : Fin cfg0.N, (cfg0.win 14).flush t = true ∧ i ∈ ((cfg0.win 14).blk t).view.set := by
  have hi : (i 0).val < 65536 := (i 0).isLt
  have hN : cfg0.N = 128 := N_0
  refine ⟨⟨(i 0).val / 512, by rw [hN]; omega⟩, flush0_14 _, ?_⟩
  rw [mem_blk]
  obtain ⟨-, -, -, -, e14⟩ := idx_rows ⟨(i 0).val / 512, by rw [hN]; omega⟩
  intro a
  match a with
  | ⟨0, _⟩ =>
    show win0_14.index ⟨(i 0).val / 512, _⟩ (0 : Fin 1) * 512 ≤ (i 0).val ∧ (i 0).val < win0_14.index ⟨(i 0).val / 512, _⟩ (0 : Fin 1) * 512 + 512
    rw [e14]
    show (i 0).val / 512 * 512 ≤ (i 0).val ∧ (i 0).val < (i 0).val / 512 * 512 + 512
    omega

/-- The result array after the run: the bound of every row. -/
theorem final (c : Dev nD) : (dats m 0 c).arrAt 14 cfg0.N = rows m c :=
  (dats m 0 c).arrAt_eq_of_cover 14 (rows m c) (fun t _ => flushed_eq m c t) cover

/-- The program's result: the mean of the rows' bounds. -/
abbrev result (c : Dev nD) : Buf (Elt Ideal) ((c.tc : Thread nD τ).loc main_v8) :=
  meanTail (rows m c) reducesTo_S65536_S_d0 h_S_

/-- The run, read: the program's result is the mean of the rows' bounds, and the arguments end unchanged. -/
theorem run : θ_run defs (onTc (τ := τ) (main (F := Ideal))) ⟨m, fun _ => 0, ρ⟩ fun r => ∀ c : Dev nD,
      r.2.mem ((c.tc : Thread nD τ).loc main_v8) = meanTail (rows m c) reducesTo_S65536_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  have hres : ∀ c : Dev nD, Pipeline.afterTail₀ cfgs (dats m) 0 (V0 m) [hostOps1] c main_v8
      = meanTail (rows m c) reducesTo_S65536_S_d0 h_S_ := fun c => by
    unfold Pipeline.afterTail₀
    show StableHlo.after hostOps1 _ (Proc.devRef .tc main_v8) = _
    after_results
    rw [show Pipeline.withArrays spec0 c (V0 m c) (fun w => (dats m 0 c).arrAt w cfg0.N) (Proc.devRef .tc main_v6) = rows m c from
      (Pipeline.withArrays_arr spec0 launch0.win.arr_inj c _ _ 14).trans (final m c)]
    rfl
  refine (θ_run defs _ _).mono (fun r h c => ⟨?_, ?_⟩) (run_main m ρ)
  · exact ((h c).2 main_v8 (Pipeline.mem_restRefs_of main_v8 (by decide) (by decide))).trans (hres c)
  · exact ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c),
      ((h c).1 13).trans (((dats m 0 c).arrAt_in 13 rfl _).trans ((A_eq m c 13).trans (V_main_arg13 m c)))⟩

end Cert.KernelIdeal.RowValue

end
-- ==== Proof.RefEnc.lean ====
/-
  The reference's encoder, one row at a time.

  The reference computes on whole arrays of 65536 rows. Read at row r, its first layer is tanh of the affine layer on row
  r of the data, the code's mean and log-variance are affine in that hidden row, the sample is
  mean + exp (½ · log-variance) · noise of row r, and the decoder's hidden row is tanh of the affine layer on the sample:
  the same functions of row r as a block's row goes through in the kernel. Each matrix product is the sum over the
  contracted coordinate of left (r, k) · right (k, j), and each bias is spread over the rows.
-/
import proofs.«125106_j71983651881070_1_alg».proof.Proof.Gen.ReferenceIdeal.Read
import proofs.«125106_j71983651881070_1_alg».proof.Proof.RowSpec

noncomputable section

open Idealize.ShloMosaic Idealize.ShloMosaic.ValueIdx

namespace Cert.ReferenceIdeal.Rows

open Cert.ReferenceIdeal Cert.ReferenceIdeal.Gen Cert.ReferenceIdeal.Read Cert.VaeRow

/-- Two indices built coordinate by coordinate are equal: each coordinate is the same number. -/
macro "idx_rfl" : tactic => `(tactic| (funext a; apply Fin.ext; fin_cases a <;> rfl))

variable (x0 : (⟨S65536x512, .f32⟩ : BufTy).Contents (Elt Ideal)) (x1 : (⟨S65536x64, .f32⟩ : BufTy).Contents (Elt Ideal)) (x2 : (⟨S512x1024, .f32⟩ : BufTy).Contents (Elt Ideal)) (x3 : (⟨S1024, .f32⟩ : BufTy).Contents (Elt Ideal)) (x4 : (⟨S1024x64, .f32⟩ : BufTy).Contents (Elt Ideal)) (x5 : (⟨S64, .f32⟩ : BufTy).Contents (Elt Ideal)) (x6 : (⟨S1024x64, .f32⟩ : BufTy).Contents (Elt Ideal)) (x7 : (⟨S64, .f32⟩ : BufTy).Contents (Elt Ideal)) (x8 : (⟨S64x1024, .f32⟩ : BufTy).Contents (Elt Ideal)) (x9 : (⟨S1024, .f32⟩ : BufTy).Contents (Elt Ideal))

/-- The first layer at (r, j). -/
theorem hidden_ref (r : Fin 65536) (j : Fin 1024) :
    val_main_v4 (F := Ideal) x0 x2 x3 (ix2 r j) = tanhLayer x2 x3 (fun d => x0 (ix2 r d)) j := by
  rw [val_main_v4_apply, val_main_v3_apply, val_main_v0_apply, val_main_v2_apply, val_main_v1_apply]
  have e1 : ∀ k, lidx_main_v0 (ix2 r j) k = ix2 r k := fun k => by idx_rfl
  have e2 : ∀ k, ridx_main_v0 (ix2 r j) k = ix2 k j := fun k => by idx_rfl
  have e3 : idx_main_v1 (idx_main_v2 (ix2 r j)) = ix1 j := by idx_rfl
  simp only [e1, e2, e3]
  rfl

/-- The code's mean at (r, l). -/
theorem mean_ref (r : Fin 65536) (l : Fin 64) :
    val_main_v8 (F := Ideal) x0 x2 x3 x4 x5 (ix2 r l) = affine x4 x5 (tanhLayer x2 x3 (fun d => x0 (ix2 r d))) l := by
  rw [val_main_v8_apply, val_main_v5_apply, val_main_v7_apply, val_main_v6_apply]
  have e1 : ∀ k, lidx_main_v5 (ix2 r l) k = ix2 r k := fun k => by idx_rfl
  have e2 : ∀ k, ridx_main_v5 (ix2 r l) k = ix2 k l := fun k => by idx_rfl
  have e3 : idx_main_v6 (idx_main_v7 (ix2 r l)) = ix1 l := by idx_rfl
  simp only [e1, e2, e3, hidden_ref]
  rfl

/-- The code's log-variance at (r, l). -/
theorem logvar_ref (r : Fin 65536) (l : Fin 64) :
    val_main_v12 (F := Ideal) x0 x2 x3 x6 x7 (ix2 r l) = affine x6 x7 (tanhLayer x2 x3 (fun d => x0 (ix2 r d))) l := by
  rw [val_main_v12_apply, val_main_v9_apply, val_main_v11_apply, val_main_v10_apply]
  have e1 : ∀ k, lidx_main_v9 (ix2 r l) k = ix2 r k := fun k => by idx_rfl
  have e2 : ∀ k, ridx_main_v9 (ix2 r l) k = ix2 k l := fun k => by idx_rfl
  have e3 : idx_main_v10 (idx_main_v11 (ix2 r l)) = ix1 l := by idx_rfl
  simp only [e1, e2, e3, hidden_ref]
  rfl

/-- The reparameterised sample at (r, l). -/
theorem sample_ref (r : Fin 65536) (l : Fin 64) :
    val_main_v17 (F := Ideal) x0 x1 x2 x3 x4 x5 x6 x7 (ix2 r l)
      = sample (affine x4 x5 (tanhLayer x2 x3 (fun d => x0 (ix2 r d)))) (affine x6 x7 (tanhLayer x2 x3 (fun d => x0 (ix2 r d))))
          (fun l => x1 (ix2 r l)) l := by
  rw [val_main_v17_apply, val_main_v16_apply, val_main_v15_apply, val_main_v14_apply, val_main_v13_apply, val_main_cst_apply,
    mean_ref, logvar_ref]
  rfl

/-- The decoder's hidden layer at (r, j). -/
theorem decHidden_ref (r : Fin 65536) (j : Fin 1024) :
    val_main_v22 (F := Ideal) x0 x1 x2 x3 x4 x5 x6 x7 x8 x9 (ix2 r j)
      = tanhLayer x8 x9 (sample (affine x4 x5 (tanhLayer x2 x3 (fun d => x0 (ix2 r d))))
          (affine x6 x7 (tanhLayer x2 x3 (fun d => x0 (ix2 r d)))) (fun l => x1 (ix2 r l))) j := by
  rw [val_main_v22_apply, val_main_v21_apply, val_main_v18_apply, val_main_v20_apply, val_main_v19_apply]
  have e1 : ∀ k, lidx_main_v18 (ix2 r j) k = ix2 r k := fun k => by idx_rfl
  have e2 : ∀ k, ridx_main_v18 (ix2 r j) k = ix2 k j := fun k => by idx_rfl
  have e3 : idx_main_v19 (idx_main_v20 (ix2 r j)) = ix1 j := by idx_rfl
  simp only [e1, e2, e3, sample_ref]
  rfl

end Cert.ReferenceIdeal.Rows

end
-- ==== Proof.RefDec.lean ====
/-
  The reference's decoder outputs, one row at a time.

  Read at row r: the reconstruction's logits and log-variance are affine in the decoder's hidden row; the softmax takes
  the row's maximum — the reference takes the maximum with −∞ once more after folding max from −∞ over the row, which
  changes nothing, a fold of max being at least its starting value —, exponentiates the shifted row and divides by the
  row's sum, which the reference starts from 0.
-/
import proofs.«125106_j71983651881070_1_alg».proof.Proof.RefEnc
import proofs.«125106_j71983651881070_1_alg».proof.Proof.RowOps

noncomputable section

open Idealize.ShloMosaic Idealize.ShloMosaic.ValueIdx

namespace Cert.ReferenceIdeal.Rows

open Cert.ReferenceIdeal Cert.ReferenceIdeal.Gen Cert.ReferenceIdeal.Read Cert.VaeRow Cert.RowOps

variable (x0 : (⟨S65536x512, .f32⟩ : BufTy).Contents (Elt Ideal)) (x1 : (⟨S65536x64, .f32⟩ : BufTy).Contents (Elt Ideal)) (x2 : (⟨S512x1024, .f32⟩ : BufTy).Contents (Elt Ideal)) (x3 : (⟨S1024, .f32⟩ : BufTy).Contents (Elt Ideal)) (x4 : (⟨S1024x64, .f32⟩ : BufTy).Contents (Elt Ideal)) (x5 : (⟨S64, .f32⟩ : BufTy).Contents (Elt Ideal)) (x6 : (⟨S1024x64, .f32⟩ : BufTy).Contents (Elt Ideal)) (x7 : (⟨S64, .f32⟩ : BufTy).Contents (Elt Ideal)) (x8 : (⟨S64x1024, .f32⟩ : BufTy).Contents (Elt Ideal)) (x9 : (⟨S1024, .f32⟩ : BufTy).Contents (Elt Ideal)) (x10 : (⟨S1024x512, .f32⟩ : BufTy).Contents (Elt Ideal)) (x11 : (⟨S512, .f32⟩ : BufTy).Contents (Elt Ideal)) (x12 : (⟨S1024x512, .f32⟩ : BufTy).Contents (Elt Ideal)) (x13 : (⟨S512, .f32⟩ : BufTy).Contents (Elt Ideal))

/-- The decoder's hidden row of r, as a function of the arguments. -/
abbrev hdOf (r : Fin 65536) : Fin 1024 → EReal :=
  tanhLayer x8 x9 (sample (affine x4 x5 (tanhLayer x2 x3 (fun d => x0 (ix2 r d))))
    (affine x6 x7 (tanhLayer x2 x3 (fun d => x0 (ix2 r d)))) (fun l => x1 (ix2 r l)))

/-- The reconstruction's logits at (r, d). -/
theorem logits_ref (r : Fin 65536) (d : Fin 512) :
    val_main_v26 (F := Ideal) x0 x1 x2 x3 x4 x5 x6 x7 x8 x9 x10 x11 (ix2 r d)
      = affine x10 x11 (hdOf x0 x1 x2 x3 x4 x5 x6 x7 x8 x9 r) d := by
  rw [val_main_v26_apply, val_main_v23_apply, val_main_v25_apply, val_main_v24_apply]
  have e1 : ∀ k, lidx_main_v23 (ix2 r d) k = ix2 r k := fun k => by idx_rfl
  have e2 : ∀ k, ridx_main_v23 (ix2 r d) k = ix2 k d := fun k => by idx_rfl
  have e3 : idx_main_v24 (idx_main_v25 (ix2 r d)) = ix1 d := by idx_rfl
  simp only [e1, e2, e3, decHidden_ref]
  rfl

/-- The reconstruction's log-variance at (r, d). -/
theorem xlogvar_ref (r : Fin 65536) (d : Fin 512) :
    val_main_v41 (F := Ideal) x0 x1 x2 x3 x4 x5 x6 x7 x8 x9 x12 x13 (ix2 r d)
      = affine x12 x13 (hdOf x0 x1 x2 x3 x4 x5 x6 x7 x8 x9 r) d := by
  rw [val_main_v41_apply, val_main_v38_apply, val_main_v40_apply, val_main_v39_apply]
  have e1 : ∀ k, lidx_main_v38 (ix2 r d) k = ix2 r k := fun k => by idx_rfl
  have e2 : ∀ k, ridx_main_v38 (ix2 r d) k = ix2 k d := fun k => by idx_rfl
  have e3 : idx_main_v39 (idx_main_v40 (ix2 r d)) = ix1 d := by idx_rfl
  simp only [e1, e2, e3, decHidden_ref]
  rfl

/-- The row's maximum at r: the maximum with −∞ of the fold of max from −∞ is the fold. -/
theorem rowMax_ref (r : Fin 65536) :
    val_main_v29 (F := Ideal) x0 x1 x2 x3 x4 x5 x6 x7 x8 x9 x10 x11 (ix1 r)
      = rowMax (affine x10 x11 (hdOf x0 x1 x2 x3 x4 x5 x6 x7 x8 x9 r)) := by
  rw [val_main_v29_apply, val_main_v28_apply, val_main_cst_1_apply]
  unfold val_main_v27
  rw [hostRowMax_apply _ _ reducesTo_S65536x512_S65536_d1 (by decide) h_S_ r]
  have hg : (fun k => val_main_v26 (F := Ideal) x0 x1 x2 x3 x4 x5 x6 x7 x8 x9 x10 x11 (ix2 r k))
      = affine x10 x11 (hdOf x0 x1 x2 x3 x4 x5 x6 x7 x8 x9 r) := funext fun k => logits_ref x0 x1 x2 x3 x4 x5 x6 x7 x8 x9 x10 x11 r k
  rw [hg]
  exact max_fold_max _ _ _

/-- The shifted exponentials at (r, d). -/
theorem expShift_ref (r : Fin 65536) (d : Fin 512) :
    val_main_v33 (F := Ideal) x0 x1 x2 x3 x4 x5 x6 x7 x8 x9 x10 x11 (ix2 r d)
      = expShift (affine x10 x11 (hdOf x0 x1 x2 x3 x4 x5 x6 x7 x8 x9 r)) d := by
  rw [val_main_v33_apply, val_main_v32_apply, val_main_v31_apply, val_main_v30_apply]
  have e : idx_main_v30 (idx_main_v31 (ix2 r d)) = ix1 r := by idx_rfl
  rw [e, rowMax_ref, logits_ref]
  rfl

/-- The softmax at (r, d). -/
theorem softmax_ref (r : Fin 65536) (d : Fin 512) :
    val_main_v37 (F := Ideal) x0 x1 x2 x3 x4 x5 x6 x7 x8 x9 x10 x11 (ix2 r d)
      = softmax (affine x10 x11 (hdOf x0 x1 x2 x3 x4 x5 x6 x7 x8 x9 r)) d := by
  rw [val_main_v37_apply, val_main_v36_apply, val_main_v35_apply, val_main_v34_apply, val_main_cst_2_apply]
  have e : idx_main_v35 (idx_main_v36 (ix2 r d)) = ix1 r := by idx_rfl
  have e2 : ∀ k, idx_main_v34 (ix1 r) k = ix2 r k := fun k => by idx_rfl
  rw [e]
  simp only [e2, expShift_ref]
  unfold softmax
  show Ideal.div _ (Ideal.ofBits .f32 0x00000000#32 + _) = _
  rw [Ideal.ofBits_zero_f32, zero_add]

end Cert.ReferenceIdeal.Rows

end
-- ==== Proof.RefLoss.lean ====
/-
  The reference's two loss terms, the row's bound, and the mean over the rows.

  Read at row r: the Kullback–Leibler term is −½ times the sum over the code's coordinates, the log-likelihood −½ times the
  sum over the data's coordinates of lvx + (x − mux)² · exp (−lvx) + log 2π, both sums started from 0; the row's bound is
  their difference, the reference multiplying the Kullback–Leibler term by the constant 1 first, and 1 · y = y. The
  program's result is the mean of the rows' bounds.
-/
import proofs.«125106_j71983651881070_1_alg».proof.Proof.RefDec

noncomputable section

open Idealize.ShloMosaic Idealize.ShloMosaic.ValueIdx

namespace Cert.ReferenceIdeal.Rows

open Cert.ReferenceIdeal Cert.ReferenceIdeal.Gen Cert.ReferenceIdeal.Read Cert.VaeRow Cert.RowOps

variable (x0 : (⟨S65536x512, .f32⟩ : BufTy).Contents (Elt Ideal)) (x1 : (⟨S65536x64, .f32⟩ : BufTy).Contents (Elt Ideal)) (x2 : (⟨S512x1024, .f32⟩ : BufTy).Contents (Elt Ideal)) (x3 : (⟨S1024, .f32⟩ : BufTy).Contents (Elt Ideal)) (x4 : (⟨S1024x64, .f32⟩ : BufTy).Contents (Elt Ideal)) (x5 : (⟨S64, .f32⟩ : BufTy).Contents (Elt Ideal)) (x6 : (⟨S1024x64, .f32⟩ : BufTy).Contents (Elt Ideal)) (x7 : (⟨S64, .f32⟩ : BufTy).Contents (Elt Ideal)) (x8 : (⟨S64x1024, .f32⟩ : BufTy).Contents (Elt Ideal)) (x9 : (⟨S1024, .f32⟩ : BufTy).Contents (Elt Ideal)) (x10 : (⟨S1024x512, .f32⟩ : BufTy).Contents (Elt Ideal)) (x11 : (⟨S512, .f32⟩ : BufTy).Contents (Elt Ideal)) (x12 : (⟨S1024x512, .f32⟩ : BufTy).Contents (Elt Ideal)) (x13 : (⟨S512, .f32⟩ : BufTy).Contents (Elt Ideal))

/-- The Kullback–Leibler term of row r. -/
theorem kl_ref (r : Fin 65536) :
    val_main_v50 (F := Ideal) x0 x2 x3 x4 x5 x6 x7 (ix1 r)
      = kl (affine x4 x5 (tanhLayer x2 x3 (fun d => x0 (ix2 r d)))) (affine x6 x7 (tanhLayer x2 x3 (fun d => x0 (ix2 r d)))) := by
  rw [val_main_v50_apply, val_main_v49_apply, val_main_cst_5_apply, val_main_v48_apply, val_main_cst_4_apply]
  have e : ∀ k, idx_main_v48 (ix1 r) k = ix2 r k := fun k => by idx_rfl
  simp only [e, val_main_v47_apply, val_main_v45_apply, val_main_v46_apply, val_main_v43_apply, val_main_v44_apply,
    val_main_v42_apply, val_main_cst_3_apply, mean_ref, logvar_ref]
  unfold kl
  show Ideal.ofBits .f32 0xBF000000#32 * (Ideal.ofBits .f32 0x00000000#32 + _) = _
  rw [Ideal.ofBits_zero_f32, zero_add]
  rfl

/-- The log-likelihood of row r. -/
theorem loglik_ref (r : Fin 65536) :
    val_main_v61 (F := Ideal) x0 x1 x2 x3 x4 x5 x6 x7 x8 x9 x10 x11 x12 x13 (ix1 r)
      = loglik (fun d => x0 (ix2 r d)) (softmax (affine x10 x11 (hdOf x0 x1 x2 x3 x4 x5 x6 x7 x8 x9 r)))
          (affine x12 x13 (hdOf x0 x1 x2 x3 x4 x5 x6 x7 x8 x9 r)) := by
  rw [val_main_v61_apply, val_main_v60_apply, val_main_cst_8_apply, val_main_v59_apply, val_main_cst_7_apply]
  have e : ∀ k, idx_main_v59 (ix1 r) k = ix2 r k := fun k => by idx_rfl
  simp only [e, val_main_v58_apply, val_main_v57_apply, val_main_cst_6_apply, val_main_v56_apply, val_main_v55_apply,
    val_main_v54_apply, val_main_v53_apply, val_main_v52_apply, val_main_v51_apply, xlogvar_ref, softmax_ref]
  unfold loglik
  show Ideal.ofBits .f32 0xBF000000#32 * (Ideal.ofBits .f32 0x00000000#32 + _) = _
  rw [Ideal.ofBits_zero_f32, zero_add]
  rfl

/-- The bound of row r. -/
theorem elbo_ref (r : Fin 65536) :
    val_main_v64 (F := Ideal) x0 x1 x2 x3 x4 x5 x6 x7 x8 x9 x10 x11 x12 x13 (ix1 r)
      = elbo ⟨x2, x3, x4, x5, x6, x7, x8, x9, x10, x11, x12, x13⟩ (fun d => x0 (ix2 r d)) (fun l => x1 (ix2 r l)) := by
  rw [val_main_v64_apply, val_main_v63_apply, val_main_v62_apply, val_main_cst_9_apply, loglik_ref, kl_ref]
  show _ - Ideal.ofBits .f32 0x3F800000#32 * _ = _
  rw [ofBits_one_f32, one_mul]
  rfl

/-- The program's result: the mean of the rows' bounds. -/
theorem result_ref :
    val_main_v66 (F := Ideal) x0 x1 x2 x3 x4 x5 x6 x7 x8 x9 x10 x11 x12 x13
      = meanTail (elboRows ⟨x2, x3, x4, x5, x6, x7, x8, x9, x10, x11, x12, x13⟩ x0 x1) reducesTo_S65536_S_d0 h_S_ := by
  have hrows : val_main_v64 (F := Ideal) x0 x1 x2 x3 x4 x5 x6 x7 x8 x9 x10 x11 x12 x13 = elboRows ⟨x2, x3, x4, x5, x6, x7, x8, x9, x10, x11, x12, x13⟩ x0 x1 := by
    funext j
    obtain ⟨r, rfl⟩ : ∃ r : Fin 65536, j = ix1 r := ⟨j 0, eq_ix1 j⟩
    exact elbo_ref x0 x1 x2 x3 x4 x5 x6 x7 x8 x9 x10 x11 x12 x13 r
  unfold val_main_v66 val_main_v65 val_main_cst_10 val_main_cst_11 meanTail
  rw [hrows]

end Cert.ReferenceIdeal.Rows

end
-- ==== Proof.lean ====
/-
  A variational auto-encoder's mean evidence lower bound: a tiled kernel against the whole-array computation.

  The kernel handles 512 rows of the data and of the noise per grid point, with every weight and bias resident, and stores
  each row's bound — log-likelihood minus Kullback–Leibler term —; the host then takes the mean over the 65536 rows. The
  reference computes the same bound on whole arrays. On the extended reals a change of float format is the identity, a
  matrix product is the plain sum over the contracted coordinate and a reduction the plain sum or fold over its axis, so
  both programs compute, row by row, one function of that row of the data and of the noise (Proof/RowSpec.lean). Three
  places differ in spelling and none in value: the reference takes the maximum with −∞ of a fold of max that already
  started from −∞; it multiplies the Kullback–Leibler term by the constant 1; and it negates where the kernel subtracts
  from 0. None of these needs the inputs to be finite, so the precondition is not opened.

  The kernel's side: each payload read at a row (Proof/KernelEnc.lean, KernelDec.lean, KernelRow.lean), the blocks the
  grid points write back tiling the result array, and the host's mean after the region (Proof/KernelValue.lean). The
  reference's side: each stage read at a row (Proof/RefEnc.lean, RefDec.lean, RefLoss.lean). No operation of the kernel was
  replaced for the reading at the extended reals, so that reading is the kernel's own text and owes no further statement.
-/
import proofs.«125106_j71983651881070_1_alg».proof.Defs
import proofs.«125106_j71983651881070_1_alg».proof.Proof.Gen.Kernel
import proofs.«125106_j71983651881070_1_alg».proof.Proof.Gen.Kernel.Skeleton
import proofs.«125106_j71983651881070_1_alg».proof.Proof.Gen.Kernel.Launch
import proofs.«125106_j71983651881070_1_alg».proof.Proof.Gen.Kernel.Points
import proofs.«125106_j71983651881070_1_alg».proof.Proof.Gen.Kernel.Frame
import proofs.«125106_j71983651881070_1_alg».proof.Proof.Gen.KernelIdeal
import proofs.«125106_j71983651881070_1_alg».proof.Proof.Gen.KernelIdeal.Skeleton
import proofs.«125106_j71983651881070_1_alg».proof.Proof.Gen.KernelIdeal.Launch
import proofs.«125106_j71983651881070_1_alg».proof.Proof.Gen.KernelIdeal.Points
import proofs.«125106_j71983651881070_1_alg».proof.Proof.Gen.KernelIdeal.Frame
import proofs.«125106_j71983651881070_1_alg».proof.Proof.Gen.ReferenceIdeal
import proofs.«125106_j71983651881070_1_alg».proof.Proof.Gen.ReferenceIdeal.Run
import proofs.«125106_j71983651881070_1_alg».proof.Proof.Gen.ReferenceIdeal.Read
import proofs.«125106_j71983651881070_1_alg».proof.Proof.Gen.Pre_finite_inputs
import proofs.«125106_j71983651881070_1_alg».proof.Proof.KernelValue
import proofs.«125106_j71983651881070_1_alg».proof.Proof.RefLoss
import Idealize.ShloMosaic.Adequacy
import Idealize.ShloMosaic.Init

noncomputable section

namespace Cert.Proof

open Idealize.ShloMosaic Idealize.SL.Sem

/-- Each program runs to the end without a fault and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the mean of the rows' bounds of arguments that agree. -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.Rows.result_ref]
  obtain ⟨a0, a1, a2, a3, a4, a5, a6, a7, a8, a9, a10, a11, a12, a13⟩ := hagree c
  rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
